-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x4x4 : Shape := ⟨3, ![2097152, 4, 4]⟩
abbrev S2097152x10x3 : Shape := ⟨3, ![2097152, 10, 3]⟩
abbrev S_ : Shape := ⟨0, ![]⟩

class Facts : Prop where
  bcast_S_S2097152x4x4 : S_.BroadcastsInDim S2097152x4x4 (![] : Fin 0 → Fin S2097152x4x4.rank)
  reducesTo_S2097152x4x4_S_d0_1_2 : S2097152x4x4.ReducesTo [0, 1, 2] S_
  h_S_ : 0 < S_.numel
  bcast_S_S2097152x10x3 : S_.BroadcastsInDim S2097152x10x3 (![] : Fin 0 → Fin S2097152x10x3.rank)
  reducesTo_S2097152x10x3_S_d0_1_2 : S2097152x10x3.ReducesTo [0, 1, 2] S_

variable [Facts]

def fn {F : FTy → Type} [FloatOps F] (main_arg0 : FVec F S2097152x4x4 .f32) (main_arg1 : FVec F S2097152x10x3 .f32) : IVec S_ 1 :=
  let main_v0 : FVec F S2097152x4x4 .f32 := Host.absf main_arg0
  let main_cst : FVec F S_ .f32 := constant S_ .f32 0x7F800000#32
  let main_v1 : FVec F S2097152x4x4 .f32 := broadcastInDim S2097152x4x4 ![] bcast_S_S2097152x4x4 main_cst
  let main_v2 : IVec S2097152x4x4 1 := cmpf .olt main_v0 main_v1
  let main_c : IVec S_ 1 := constantI S_ 1 1#1
  let main_v3 : IVec S_ 1 := (fun x v => Host.reduce IntOp.andi x v reducesTo_S2097152x4x4_S_d0_1_2 h_S_) main_v2 main_c
  let main_v4 : FVec F S2097152x10x3 .f32 := Host.absf main_arg1
  let main_cst_0 : FVec F S_ .f32 := constant S_ .f32 0x7F800000#32
  let main_v5 : FVec F S2097152x10x3 .f32 := broadcastInDim S2097152x10x3 ![] bcast_S_S2097152x10x3 main_cst_0
  let main_v6 : IVec S2097152x10x3 1 := cmpf .olt main_v4 main_v5
  let main_c_1 : IVec S_ 1 := constantI S_ 1 1#1
  let main_v7 : IVec S_ 1 := (fun x v => Host.reduce IntOp.andi x v reducesTo_S2097152x10x3_S_d0_1_2 h_S_) main_v6 main_c_1
  let main_v8 : IVec S_ 1 := andi main_v3 main_v7
  main_v8
-- ==== Kernel.lean ====
abbrev S2097152x4x4 : Shape := ⟨3, ![2097152, 4, 4]⟩
abbrev S2097152x10x3 : Shape := ⟨3, ![2097152, 10, 3]⟩
abbrev S2097152x16 : Shape := ⟨2, ![2097152, 16]⟩
abbrev S2097152x30 : Shape := ⟨2, ![2097152, 30]⟩
abbrev S2097152x1 : Shape := ⟨2, ![2097152, 1]⟩
abbrev S1024x16 : Shape := ⟨2, ![1024, 16]⟩
abbrev S1024x30 : Shape := ⟨2, ![1024, 30]⟩
abbrev S1024x1 : Shape := ⟨2, ![1024, 1]⟩

abbrev nBuf : Space → Nat
  | .hbm => 5
  | .vmem => 6
  | .smem => 0
  | _ => 0

abbrev bufTy : (tb : Table) → Fin (tcTables nBuf tb) → BufTy
  | .hbm, ⟨0, _⟩ => ⟨S2097152x4x4, .f32⟩
  | .hbm, ⟨1, _⟩ => ⟨S2097152x10x3, .f32⟩
  | .hbm, ⟨2, _⟩ => ⟨S2097152x16, .f32⟩
  | .hbm, ⟨3, _⟩ => ⟨S2097152x30, .f32⟩
  | .hbm, ⟨4, _⟩ => ⟨S2097152x1, .f32⟩
  | .local _ .vmem, ⟨0, _⟩ => ⟨S1024x16, .f32⟩
  | .local _ .vmem, ⟨1, _⟩ => ⟨S1024x16, .f32⟩
  | .local _ .vmem, ⟨2, _⟩ => ⟨S1024x30, .f32⟩
  | .local _ .vmem, ⟨3, _⟩ => ⟨S1024x30, .f32⟩
  | .local _ .vmem, ⟨4, _⟩ => ⟨S1024x1, .f32⟩
  | .local _ .vmem, ⟨5, _⟩ => ⟨S1024x1, .f32⟩
  | _, _ => ⟨S2097152x4x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2048], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x30 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S2097152x4x4_S2097152x16 : S2097152x4x4.ShapeCasts S2097152x16
  shapeCasts_S2097152x10x3_S2097152x30 : S2097152x10x3.ShapeCasts S2097152x30
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1024x30_S1024x30_0_0 : ∀ a, (![0, 0] : Fin 2 → Nat) a + S1024x30.size a ≤ S1024x30.size a
  h_S1024x30 : 0 < S1024x30.numel
  shapeCasts_S1024x30_S1024x30 : S1024x30.ShapeCasts S1024x30
  slices_S1024x16_o0_0_S1024x1 : S1024x16.Slices ![0, 0] S1024x1
  slices_S1024x16_o0_4_S1024x1 : S1024x16.Slices ![0, 4] S1024x1
  slices_S1024x16_o0_8_S1024x1 : S1024x16.Slices ![0, 8] S1024x1
  slices_S1024x16_o0_12_S1024x1 : S1024x16.Slices ![0, 12] S1024x1
  slices_S1024x16_o0_1_S1024x1 : S1024x16.Slices ![0, 1] S1024x1
  slices_S1024x16_o0_5_S1024x1 : S1024x16.Slices ![0, 5] S1024x1
  slices_S1024x16_o0_9_S1024x1 : S1024x16.Slices ![0, 9] S1024x1
  slices_S1024x16_o0_13_S1024x1 : S1024x16.Slices ![0, 13] S1024x1
  slices_S1024x16_o0_2_S1024x1 : S1024x16.Slices ![0, 2] S1024x1
  slices_S1024x16_o0_6_S1024x1 : S1024x16.Slices ![0, 6] S1024x1
  slices_S1024x16_o0_10_S1024x1 : S1024x16.Slices ![0, 10] S1024x1
  slices_S1024x16_o0_14_S1024x1 : S1024x16.Slices ![0, 14] S1024x1
  slices_S1024x16_o0_3_S1024x1 : S1024x16.Slices ![0, 3] S1024x1
  slices_S1024x16_o0_7_S1024x1 : S1024x16.Slices ![0, 7] S1024x1
  slices_S1024x16_o0_11_S1024x1 : S1024x16.Slices ![0, 11] S1024x1
  slices_S1024x16_o0_15_S1024x1 : S1024x16.Slices ![0, 15] S1024x1
  slices_S1024x30_o0_0_S1024x1 : S1024x30.Slices ![0, 0] S1024x1
  slices_S1024x30_o0_3_S1024x1 : S1024x30.Slices ![0, 3] S1024x1
  slices_S1024x30_o0_6_S1024x1 : S1024x30.Slices ![0, 6] S1024x1
  slices_S1024x30_o0_9_S1024x1 : S1024x30.Slices ![0, 9] S1024x1
  slices_S1024x30_o0_1_S1024x1 : S1024x30.Slices ![0, 1] S1024x1
  slices_S1024x30_o0_4_S1024x1 : S1024x30.Slices ![0, 4] S1024x1
  slices_S1024x30_o0_7_S1024x1 : S1024x30.Slices ![0, 7] S1024x1
  slices_S1024x30_o0_10_S1024x1 : S1024x30.Slices ![0, 10] S1024x1
  slices_S1024x30_o0_2_S1024x1 : S1024x30.Slices ![0, 2] S1024x1
  slices_S1024x30_o0_5_S1024x1 : S1024x30.Slices ![0, 5] S1024x1
  slices_S1024x30_o0_8_S1024x1 : S1024x30.Slices ![0, 8] S1024x1
  slices_S1024x30_o0_11_S1024x1 : S1024x30.Slices ![0, 11] S1024x1
  inb_S1024x1_S1024x1_0_0 : ∀ a, (![0, 0] : Fin 2 → Nat) a + S1024x1.size a ≤ S1024x1.size a
  h_S1024x1 : 0 < S1024x1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x16.size a ≤ S2097152x16.size a
  hwx0_0 : ∀ i : grid0.Coords, EltTy.bits .f32 = 32 ∨ (Rect.block (s := S2097152x16) S1024x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x30.size a ≤ S2097152x30.size a
  hwx0_1 : ∀ i : grid0.Coords, EltTy.bits .f32 = 32 ∨ (Rect.block (s := S2097152x30) S1024x30.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S2097152x1.size a
  hwx0_2 : ∀ i : grid0.Coords, EltTy.bits .f32 = 32 ∨ (Rect.block (s := S2097152x1) S1024x1.size (cc0_transform_2 i) (hinb0_2 i)).WholeWords (EltTy.packing .f32)

variable [Facts₀]

abbrev win0_0 : Pipeline.Window sig grid0 :=
  Pipeline.Window.ofSpec (Memref.whole main_v0) S1024x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x30.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2097152x4x4 : Shape := ⟨3, ![2097152, 4, 4]⟩
abbrev S2097152x10x3 : Shape := ⟨3, ![2097152, 10, 3]⟩
abbrev S2097152x4x1 : Shape := ⟨3, ![2097152, 4, 1]⟩
abbrev S2097152x4 : Shape := ⟨2, ![2097152, 4]⟩
abbrev S2097152x10x1 : Shape := ⟨3, ![2097152, 10, 1]⟩
abbrev S2097152x10 : Shape := ⟨2, ![2097152, 10]⟩
abbrev S2097152x1x4 : Shape := ⟨3, ![2097152, 1, 4]⟩
abbrev S_ : Shape := ⟨0, ![]⟩
abbrev S2097152 : Shape := ⟨1, ![2097152]⟩
abbrev S4x4 : Shape := ⟨2, ![4, 4]⟩
abbrev S2097152x1 : Shape := ⟨2, ![2097152, 1]⟩

abbrev nBuf : Space → Nat
  | .hbm => 139
  | .vmem => 0
  | .smem => 0
  | _ => 0

abbrev hbmTy0_0 (i : Nat) : BufTy := match i % 128 with
  | 0 => ⟨S2097152x4x4, .f32⟩
  | 1 => ⟨S2097152x10x3, .f32⟩
  | 2 => ⟨S2097152x4x1, .f32⟩
  | 3 => ⟨S2097152x4, .f32⟩
  | 4 => ⟨S2097152x4x1, .f32⟩
  | 5 => ⟨S2097152x4, .f32⟩
  | 6 => ⟨S2097152x4x1, .f32⟩
  | 7 => ⟨S2097152x4, .f32⟩
  | 8 => ⟨S2097152x4x1, .f32⟩
  | 9 => ⟨S2097152x4, .f32⟩
  | 10 => ⟨S2097152x10x1, .f32⟩
  | 11 => ⟨S2097152x10, .f32⟩
  | 12 => ⟨S2097152x10x1, .f32⟩
  | 13 => ⟨S2097152x10, .f32⟩
  | 14 => ⟨S2097152x10x1, .f32⟩
  | 15 => ⟨S2097152x10, .f32⟩
  | 16 => ⟨S2097152x10, .f32⟩
  | 17 => ⟨S2097152x10, .f32⟩
  | 18 => ⟨S2097152x10, .f32⟩
  | 19 => ⟨S2097152x10, .f32⟩
  | 20 => ⟨S2097152x4, .f32⟩
  | 21 => ⟨S2097152x4, .f32⟩
  | 22 => ⟨S2097152x4, .f32⟩
  | 23 => ⟨S2097152x4, .f32⟩
  | 24 => ⟨S2097152x4x1, .f32⟩
  | 25 => ⟨S2097152x1x4, .f32⟩
  | 26 => ⟨S2097152x4x4, .f32⟩
  | 27 => ⟨S2097152x4x4, .f32⟩
  | 28 => ⟨S2097152x4x4, .f32⟩
  | 29 => ⟨S2097152x4x1, .f32⟩
  | 30 => ⟨S2097152x1x4, .f32⟩
  | 31 => ⟨S2097152x4x4, .f32⟩
  | 32 => ⟨S2097152x4x4, .f32⟩
  | 33 => ⟨S2097152x4x4, .f32⟩
  | 34 => ⟨S2097152x4x4, .f32⟩
  | 35 => ⟨S_, .f32⟩
  | 36 => ⟨S2097152x4x4, .f32⟩
  | 37 => ⟨S2097152x4x4, .f32⟩
  | 38 => ⟨S2097152x4x1, .f32⟩
  | 39 => ⟨S2097152x1x4, .f32⟩
  | 40 => ⟨S2097152x4x4, .f32⟩
  | 41 => ⟨S2097152x4x4, .f32⟩
  | 42 => ⟨S2097152x4x4, .f32⟩
  | 43 => ⟨S2097152x4x1, .f32⟩
  | 44 => ⟨S2097152x1x4, .f32⟩
  | 45 => ⟨S2097152x4x4, .f32⟩
  | 46 => ⟨S2097152x4x4, .f32⟩
  | 47 => ⟨S2097152x4x4, .f32⟩
  | 48 => ⟨S2097152x4x4, .f32⟩
  | 49 => ⟨S_, .f32⟩
  | 50 => ⟨S2097152x4x4, .f32⟩
  | 51 => ⟨S2097152x4x4, .f32⟩
  | 52 => ⟨S2097152x4x4, .f32⟩
  | 53 => ⟨S_, .f32⟩
  | 54 => ⟨S2097152, .f32⟩
  | 55 => ⟨S2097152x4x1, .f32⟩
  | 56 => ⟨S2097152x1x4, .f32⟩
  | 57 => ⟨S2097152x4x4, .f32⟩
  | 58 => ⟨S2097152x4x4, .f32⟩
  | 59 => ⟨S2097152x4x4, .f32⟩
  | 60 => ⟨S2097152x4x1, .f32⟩
  | 61 => ⟨S2097152x1x4, .f32⟩
  | 62 => ⟨S2097152x4x4, .f32⟩
  | 63 => ⟨S2097152x4x4, .f32⟩
  | 64 => ⟨S2097152x4x4, .f32⟩
  | 65 => ⟨S2097152x4x4, .f32⟩
  | 66 => ⟨S_, .f32⟩
  | 67 => ⟨S2097152x4x4, .f32⟩
  | 68 => ⟨S2097152x4x4, .f32⟩
  | 69 => ⟨S2097152x4x1, .f32⟩
  | 70 => ⟨S2097152x1x4, .f32⟩
  | 71 => ⟨S2097152x4x4, .f32⟩
  | 72 => ⟨S2097152x4x4, .f32⟩
  | 73 => ⟨S2097152x4x4, .f32⟩
  | 74 => ⟨S2097152x4x1, .f32⟩
  | 75 => ⟨S2097152x1x4, .f32⟩
  | 76 => ⟨S2097152x4x4, .f32⟩
  | 77 => ⟨S2097152x4x4, .f32⟩
  | 78 => ⟨S2097152x4x4, .f32⟩
  | 79 => ⟨S2097152x4x4, .f32⟩
  | 80 => ⟨S_, .f32⟩
  | 81 => ⟨S2097152x4x4, .f32⟩
  | 82 => ⟨S2097152x4x4, .f32⟩
  | 83 => ⟨S2097152x4x4, .f32⟩
  | 84 => ⟨S4x4, .i32⟩
  | 85 => ⟨S4x4, .i32⟩
  | 86 => ⟨S_, .i32⟩
  | 87 => ⟨S4x4, .i32⟩
  | 88 => ⟨S4x4, .i32⟩
  | 89 => ⟨S4x4, .i1⟩
  | 90 => ⟨S2097152x4x4, .f32⟩
  | 91 => ⟨S2097152x4x4, .i1⟩
  | 92 => ⟨S2097152x4x4, .f32⟩
  | 93 => ⟨S_, .f32⟩
  | 94 => ⟨S2097152, .f32⟩
  | 95 => ⟨S2097152x4x1, .f32⟩
  | 96 => ⟨S2097152x1x4, .f32⟩
  | 97 => ⟨S2097152x4x4, .f32⟩
  | 98 => ⟨S2097152x4x4, .f32⟩
  | 99 => ⟨S2097152x4x4, .f32⟩
  | 100 => ⟨S2097152x4x1, .f32⟩
  | 101 => ⟨S2097152x1x4, .f32⟩
  | 102 => ⟨S2097152x4x4, .f32⟩
  | 103 => ⟨S2097152x4x4, .f32⟩
  | 104 => ⟨S2097152x4x4, .f32⟩
  | 105 => ⟨S2097152x4x4, .f32⟩
  | 106 => ⟨S_, .f32⟩
  | 107 => ⟨S2097152x4x4, .f32⟩
  | 108 => ⟨S2097152x4x4, .f32⟩
  | 109 => ⟨S2097152x4x1, .f32⟩
  | 110 => ⟨S2097152x1x4, .f32⟩
  | 111 => ⟨S2097152x4x4, .f32⟩
  | 112 => ⟨S2097152x4x4, .f32⟩
  | 113 => ⟨S2097152x4x4, .f32⟩
  | 114 => ⟨S2097152x4x1, .f32⟩
  | 115 => ⟨S2097152x1x4, .f32⟩
  | 116 => ⟨S2097152x4x4, .f32⟩
  | 117 => ⟨S2097152x4x4, .f32⟩
  | 118 => ⟨S2097152x4x4, .f32⟩
  | 119 => ⟨S2097152x4x4, .f32⟩
  | 120 => ⟨S_, .f32⟩
  | 121 => ⟨S2097152x4x4, .f32⟩
  | 122 => ⟨S2097152x4x4, .f32⟩
  | 123 => ⟨S2097152x4x4, .f32⟩
  | 124 => ⟨S4x4, .i32⟩
  | 125 => ⟨S4x4, .i32⟩
  | 126 => ⟨S_, .i32⟩
  | 127 => ⟨S4x4, .i32⟩
  | _ => ⟨S2097152x4x4, .f32⟩

abbrev hbmTy0_1 (i : Nat) : BufTy := match i % 128 with
  | 0 => ⟨S4x4, .i32⟩
  | 1 => ⟨S4x4, .i1⟩
  | 2 => ⟨S2097152x4x4, .f32⟩
  | 3 => ⟨S2097152x4x4, .i1⟩
  | 4 => ⟨S2097152x4x4, .f32⟩
  | 5 => ⟨S_, .f32⟩
  | 6 => ⟨S2097152, .f32⟩
  | 7 => ⟨S2097152, .f32⟩
  | 8 => ⟨S2097152, .f32⟩
  | 9 => ⟨S2097152, .f32⟩
  | 10 => ⟨S2097152x1, .f32⟩
  | _ => ⟨S2097152x4x4, .f32⟩

abbrev hbmTy (i : Nat) : BufTy := match i / 128 with
  | 0 => hbmTy0_0 i
  | 1 => hbmTy0_1 i
  | _ => ⟨S2097152x4x4, .f32⟩

abbrev bufTy : (tb : Table) → Fin (tcTables nBuf tb) → BufTy
  | .hbm, ⟨i, _⟩ => hbmTy i
  | _, _ => ⟨S2097152x4x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_cst : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_cst_0 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_cst_1 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_cst_2 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_cst_3 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_c : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_call0_v0 : Ref sig .tc := ⟨.hbm, 91, rfl⟩
abbrev main_v83 : Ref sig .tc := ⟨.hbm, 92, rfl⟩
abbrev main_cst_4 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_cst_5 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_cst_6 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_c_7 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_call1_v0 : Ref sig .tc := ⟨.hbm, 131, rfl⟩
abbrev main_v118 : Ref sig .tc := ⟨.hbm, 132, rfl⟩
abbrev main_cst_8 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩

abbrev nD : Nat := 1
abbrev τ : Topo := Topo.v7x

variable {F : FTy → Type} [FloatOps F]

class Facts₀ : Prop where
  slices_S2097152x4x4_S2097152x4x1_0_0_0 : S2097152x4x4.Slices ![0, 0, 0] S2097152x4x1
  shapeCasts_S2097152x4x1_S2097152x4 : S2097152x4x1.ShapeCasts S2097152x4
  slices_S2097152x4x4_S2097152x4x1_0_0_1 : S2097152x4x4.Slices ![0, 0, 1] S2097152x4x1
  slices_S2097152x4x4_S2097152x4x1_0_0_2 : S2097152x4x4.Slices ![0, 0, 2] S2097152x4x1
  slices_S2097152x4x4_S2097152x4x1_0_0_3 : S2097152x4x4.Slices ![0, 0, 3] S2097152x4x1
  slices_S2097152x10x3_S2097152x10x1_0_0_0 : S2097152x10x3.Slices ![0, 0, 0] S2097152x10x1
  shapeCasts_S2097152x10x1_S2097152x10 : S2097152x10x1.ShapeCasts S2097152x10
  slices_S2097152x10x3_S2097152x10x1_0_0_1 : S2097152x10x3.Slices ![0, 0, 1] S2097152x10x1
  slices_S2097152x10x3_S2097152x10x1_0_0_2 : S2097152x10x3.Slices ![0, 0, 2] S2097152x10x1
  slices_S2097152x10_S2097152x4_0_0 : S2097152x10.Slices ![0, 0] S2097152x4
  bcast_S2097152x4_S2097152x4x1_0_1 : S2097152x4.BroadcastsInDim S2097152x4x1 (![0, 1] : Fin 2 → Fin S2097152x4x1.rank)
  bcast_S2097152x4_S2097152x1x4_0_2 : S2097152x4.BroadcastsInDim S2097152x1x4 (![0, 2] : Fin 2 → Fin S2097152x1x4.rank)
  bcast_S2097152x4x1_S2097152x4x4_0_1_2 : S2097152x4x1.BroadcastsInDim S2097152x4x4 (![0, 1, 2] : Fin 3 → Fin S2097152x4x4.rank)
  bcast_S2097152x1x4_S2097152x4x4_0_1_2 : S2097152x1x4.BroadcastsInDim S2097152x4x4 (![0, 1, 2] : Fin 3 → Fin S2097152x4x4.rank)
  bcast_S_S2097152x4x4 : S_.BroadcastsInDim S2097152x4x4 (![] : Fin 0 → Fin S2097152x4x4.rank)
  reducesTo_S2097152x4x4_S2097152_d1_2 : S2097152x4x4.ReducesTo [1, 2] S2097152
  h_S_ : 0 < S_.numel
  bcast_S_S4x4 : S_.BroadcastsInDim S4x4 (![] : Fin 0 → Fin S4x4.rank)
  bcast_S4x4_S2097152x4x4_1_2 : S4x4.BroadcastsInDim S2097152x4x4 (![1, 2] : Fin 2 → Fin S2097152x4x4.rank)
  bcast_S2097152_S2097152x1_0 : S2097152.BroadcastsInDim S2097152x1 (![0] : Fin 1 → Fin S2097152x1.rank)

variable [Facts₀]

class Facts : Prop extends Facts₀ where

variable [Facts]
-- ==== Proof.RowLoss.lean ====
/-
  The function both programs compute, for ONE batch row.

  A row holds four "true" boxes, box k given by its four numbers (min x, min y, max x, max y), and four
  "predicted" boxes, box k given by three numbers (one x end, min y, the other x end): its x interval is
  [min, max] of the two ends, and it is as tall as it is wide. Two intervals [a, a'] and [b, b'] overlap in
  length max 0 (min a' b' - max a b); two boxes overlap in the product of their x and y overlaps. The row's loss is
  (β(true) - β(pred))² - Σ_{k,k'} overlap(true_k, pred_k'), where β(boxes) = Σ_{k,k'} of the overlap of boxes k
  and k', squared on the diagonal k = k'. Everything is read on the extended reals.
-/
import Idealize.ShloMosaic.PureOps.Ideal
import Idealize.ShloMosaic.Lib.ValueIdx

noncomputable section

namespace Cert.RowLoss

open Idealize.ShloMosaic Idealize.ShloMosaic.ValueIdx

/-- The length of the overlap of the intervals [amin, amax] and [bmin, bmax], zero when they are apart. -/
def ov (amin amax bmin bmax : EReal) : EReal := max 0 (min amax bmax - max amin bmin)

/-- The lower x end of predicted box k. -/
def pminx (p : Fin 4 → Fin 3 → EReal) (k : Fin 4) : EReal := min (p k 0) (p k 2)
/-- The upper x end of predicted box k. -/
def pmaxx (p : Fin 4 → Fin 3 → EReal) (k : Fin 4) : EReal := max (p k 0) (p k 2)
/-- The upper y end of predicted box k: its lower y end plus its width. -/
def pmaxy (p : Fin 4 → Fin 3 → EReal) (k : Fin 4) : EReal := p k 1 + (pmaxx p k - pminx p k)

/-- The overlap area of box k of one family with box k' of another, the families given by their four ends. -/
def area (xmin xmax ymin ymax xmin' xmax' ymin' ymax' : Fin 4 → EReal) (k kp : Fin 4) : EReal :=
  ov (xmin k) (xmax k) (xmin' kp) (xmax' kp) * ov (ymin k) (ymax k) (ymin' kp) (ymax' kp)

/-- The total overlap of the true boxes with the predicted ones. -/
def inter (t : Fin 4 → Fin 4 → EReal) (p : Fin 4 → Fin 3 → EReal) : EReal :=
  ∑ k : Fin 4, ∑ kp : Fin 4,
    area (fun k => t k 0) (fun k => t k 2) (fun k => t k 1) (fun k => t k 3) (pminx p) (pmaxx p) (fun k => p k 1) (pmaxy p) k kp

/-- A family's overlap with itself: off the diagonal the overlap areas, on it their squares. -/
def beta (xmin xmax ymin ymax : Fin 4 → EReal) : EReal :=
  ∑ k : Fin 4, ∑ kp : Fin 4,
    if k = kp then area xmin xmax ymin ymax xmin xmax ymin ymax k kp * area xmin xmax ymin ymax xmin xmax ymin ymax k kp
    else area xmin xmax ymin ymax xmin xmax ymin ymax k kp

/-- The row's loss. -/
def rowLoss (t : Fin 4 → Fin 4 → EReal) (p : Fin 4 → Fin 3 → EReal) : EReal :=
  (beta (fun k => t k 0) (fun k => t k 2) (fun k => t k 1) (fun k => t k 3) - beta (pminx p) (pmaxx p) (fun k => p k 1) (pmaxy p))
    * (beta (fun k => t k 0) (fun k => t k 2) (fun k => t k 1) (fun k => t k 3) - beta (pminx p) (pmaxx p) (fun k => p k 1) (pmaxy p))
    - inter t p

/-- The first four of the ten predicted boxes. -/
abbrev first4 (k : Fin 4) : Fin 10 := Fin.castLE (by decide) k

/-- The whole result array as a function of the two argument arrays: at row b the loss of that row's sixteen and
    (of its thirty, the first) twelve numbers. -/
def G (X : (⟨3, ![2097152, 4, 4]⟩ : Shape).Idx → EReal) (Y : (⟨3, ![2097152, 10, 3]⟩ : Shape).Idx → EReal) :
    (⟨2, ![2097152, 1]⟩ : Shape).Idx → EReal :=
  fun i => rowLoss (fun k c => X (ix3 (i 0) k c)) (fun k c => Y (ix3 (i 0) (first4 k) c))

end Cert.RowLoss

end
-- ==== Proof.KernelRow.lean ====
/-
  What the kernel body leaves in its output block, one row at a time.

  The body loads a block of 1024 rows of the two flattened arguments (16 and 30 numbers to a row), cuts the 16 + 12
  columns it uses out of them, and from then on works on [1024, 1] columns with pointwise operations only: at row r of
  the block every intermediate is a function of row r's numbers alone. Column 4k + i of the first block is number i of
  true box k, column 3k + c of the second is number c of predicted box k. The body accumulates the 16 overlap areas of
  true with predicted boxes, then the 16 terms of β(true), then the 16 terms of β(pred), each from zero and in the order
  (k, k') lexicographic; so what it stores at row r is the row's loss, the sums written out term by term.
-/
import proofs.«115214_j21337397527223_2_alg».proof.Proof.Gen.KernelIdeal.Frame
import proofs.«115214_j21337397527223_2_alg».proof.Proof.RowLoss
import Idealize.ShloMosaic.Lib.ValueIdx
import Idealize.ShloMosaic.Lib.Pipeline.Value
import Idealize.ShloMosaic.PureOps.Ideal.Laws

noncomputable section

namespace Cert.KernelIdeal.RowValue

open Cert.KernelIdeal Cert.KernelIdeal.Gen Idealize.ShloMosaic Idealize.ShloMosaic.ValueIdx Cert.RowLoss

theorem hz : (![0, 0] : Fin 2 → Nat) = fun _ => 0 := funext fun a => by fin_cases a <;> rfl

/-- A one-column cut at column n of a 16-column block exists only for n < 16, -/
theorem lt16 {n : Nat} (h : S1024x16.Slices ![0, n] S1024x1) : n < 16 := by
  have h1 : n + 1 ≤ 16 := h.2 1
  omega

/-- and of a 30-column block only for n < 30. -/
theorem lt30 {n : Nat} (h : S1024x30.Slices ![0, n] S1024x1) : n < 30 := by
  have h1 : n + 1 ≤ 30 := h.2 1
  omega

/-- The one-column cut at column n, read at row (y 0), is the block at (y 0, n). -/
theorem col16_apply {n : Nat} (v : FVec Ideal S1024x16 .f32) (h : S1024x16.Slices ![0, n] S1024x1) (y : S1024x1.Idx) :
    extractStridedSlice S1024x1 ![0, n] v h y = v (ix2 (y 0) ⟨n, lt16 h⟩) :=
  extractStridedSlice_apply ![0, n] v h y (ix2 (y 0) ⟨n, lt16 h⟩) (fun a => match a with
    | ⟨0, _⟩ => by show (y 0).val = 0 + (y 0).val; omega
    | ⟨1, _⟩ => by have h1 : (y 1).val < 1 := (y 1).isLt; show n = n + (y 1).val; omega)

theorem col30_apply {n : Nat} (v : FVec Ideal S1024x30 .f32) (h : S1024x30.Slices ![0, n] S1024x1) (y : S1024x1.Idx) :
    extractStridedSlice S1024x1 ![0, n] v h y = v (ix2 (y 0) ⟨n, lt30 h⟩) :=
  extractStridedSlice_apply ![0, n] v h y (ix2 (y 0) ⟨n, lt30 h⟩) (fun a => match a with
    | ⟨0, _⟩ => by show (y 0).val = 0 + (y 0).val; omega
    | ⟨1, _⟩ => by have h1 : (y 1).val < 1 := (y 1).isLt; show n = n + (y 1).val; omega)

/-- The zero the body splats is the extended real 0. -/
theorem zero_bits : (Scalar.ofBits .f32 0x00000000#32 : Ideal .f32) = (0 : EReal) := Ideal.ofBits_zero_f32

/-- Number i of true box k sits in column 4k + i of a row of the first block, -/
abbrev c16 (k i : Fin 4) : Fin 16 := ⟨4 * k.val + i.val, by omega⟩
/-- number c of predicted box k in column 3k + c of a row of the second. -/
abbrev c30 (k : Fin 4) (c : Fin 3) : Fin 30 := ⟨3 * k.val + c.val, by omega⟩

set_option maxRecDepth 65536 in
set_option maxHeartbeats 4000000 in
/-- What the body stores at row (y 0) of its output block is the loss of that row of its two input blocks. -/
theorem out_row (x0 : Vec Ideal S1024x16 .f32) (x1 : Vec Ideal S1024x30 .f32) (y : S1024x1.Idx) :
    out0_2 x0 x1 y
      = rowLoss (fun k i => x0 (ix2 (y 0) (c16 k i))) (fun k c => x1 (ix2 (y 0) (c30 k c))) := by
  unfold out0_2
  rw [View.canon_unit_zero hz]
  simp only [View.ld_unit_zero (S := S1024x16) hz, View.ld_unit_zero (S := S1024x30) hz]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75]
  simp only [subf_apply, mulf_apply, addf_apply, maximumf_apply, minimumf_apply, broadcast_apply, shapeCast_self,
    col16_apply, col30_apply, Ideal.ofBits_def, Ideal.ofBits_zero_f32]
  simp only [rowLoss, beta, inter, area, ov, pminx, pmaxx, pmaxy, Fin.sum_univ_four, Fin.isValue, Fin.reduceEq, ↓reduceIte]
  simp only [zero_add, add_assoc]
  rfl

end Cert.KernelIdeal.RowValue

end
-- ==== Proof.KernelValue.lean ====
/-
  From blocks to the array: what the kernel's result array holds after the run.

  The grid has 2048 points; point t fetches rows 1024 t … 1024 t + 1023 of the two flattened arguments and writes back
  rows 1024 t … 1024 t + 1023 of the one-column result. The flattened arguments are the arguments themselves re-laid row
  by row: entry (R, 4k + i) of the first is number i of true box k of row R, entry (R, 3k + c) of the second is number c
  of predicted box k. So row r of point t's input blocks holds the numbers of row 1024 t + r, the body leaves that row's
  loss at row r of its output block, and, the 2048 blocks covering the result, the result array is the row loss of
  every row.
-/
import proofs.«115214_j21337397527223_2_alg».proof.Proof.Gen.KernelIdeal.Value
import proofs.«115214_j21337397527223_2_alg».proof.Proof.KernelRow
import Idealize.ShloMosaic.Lib.StableHlo.Run

noncomputable section

namespace Cert.KernelIdeal.ArrValue

open Cert.KernelIdeal Cert.KernelIdeal.Gen Cert.KernelIdeal.RowValue Idealize.ShloMosaic Idealize.ShloMosaic.TcCoe
open Idealize.SL.Sem Idealize.ShloMosaic.ValueIdx Cert.RowLoss
open Idealize.ShloMosaic.Pipeline (Dat)

variable (m : (ℓ : Loc nD τ sig) → Buf (Elt Ideal) ℓ) (ρ : Dev nD → PrngReg)

/-- The printed index maps, decided over the grid: every window's block index is (t, 0) at point t. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The first flattened argument, as the region finds it, is the first argument re-laid. -/
theorem V_true (c : Dev nD) : (V m c main_v0 : S2097152x16.Idx → EReal)
    = shapeCast S2097152x16 (m ((c : Thread nD τ).loc main_arg0)) shapeCasts_S2097152x4x4_S2097152x16 := by
  dsimp only [Gen.V, Gen.hostOps0]; after_results; rfl

/-- The second flattened argument likewise. -/
theorem V_pred (c : Dev nD) : (V m c main_v1 : S2097152x30.Idx → EReal)
    = shapeCast S2097152x30 (m ((c : Thread nD τ).loc main_arg1)) shapeCasts_S2097152x10x3_S2097152x30 := by
  dsimp only [Gen.V, Gen.hostOps0]; after_results; rfl

/-- Row r of point t's first input block, at column 4k + i, is number i of true box k of row 1024 t + r. -/
theorem true_blk (c : Dev nD) (t : Fin cfg0.N) (r : Fin 1024) (R : Fin 2097152) (hR : R.val = t.val * 1024 + r.val)
    (k i : Fin 4) :
    (iblk m c 0 t : Vec Ideal S1024x16 .f32) (ix2 r (c16 k i))
      = (m ((c : Thread nD τ).loc main_arg0) : S2097152x4x4.Idx → EReal) (ix3 R k i) := by
  obtain ⟨e0, e1, -, -, -, -⟩ := idx_facts t
  unfold iblk
  rw [View.read_apply]
  show (V m c main_v0 : S2097152x16.Idx → EReal) _ = _
  rw [V_true]
  refine shapeCast_apply _ _ _ _ ?_
  show ((⟨3, ![2097152, 4, 4]⟩ : Shape).rowMajor (ix3 R k i)).val
    = ((⟨2, ![2097152, 16]⟩ : Shape).rowMajor (((cfg0.win 0).blk t).view.emb (ix2 r (c16 k i)))).val
  rw [Shape.rowMajor_val_three, Shape.rowMajor_val_two]
  have hk := k.isLt; have hi := i.isLt
  show (R.val * 4 + k.val) * 4 + i.val
    = (win0_0.index t (0 : Fin 2) * 1024 + 1 * r.val) * 16 + (win0_0.index t (1 : Fin 2) * 16 + 1 * (4 * k.val + i.val))
  omega

/-- Row r of point t's second input block, at column 3k + c, is number c of predicted box k of row 1024 t + r. -/
theorem pred_blk (c : Dev nD) (t : Fin cfg0.N) (r : Fin 1024) (R : Fin 2097152) (hR : R.val = t.val * 1024 + r.val)
    (k : Fin 4) (j : Fin 3) :
    (iblk m c 1 t : Vec Ideal S1024x30 .f32) (ix2 r (c30 k j))
      = (m ((c : Thread nD τ).loc main_arg1) : S2097152x10x3.Idx → EReal) (ix3 R (first4 k) j) := by
  obtain ⟨-, -, e0, e1, -, -⟩ := idx_facts t
  unfold iblk
  rw [View.read_apply]
  show (V m c main_v1 : S2097152x30.Idx → EReal) _ = _
  rw [V_pred]
  refine shapeCast_apply _ _ _ _ ?_
  show ((⟨3, ![2097152, 10, 3]⟩ : Shape).rowMajor (ix3 R (first4 k) j)).val
    = ((⟨2, ![2097152, 30]⟩ : Shape).rowMajor (((cfg0.win 1).blk t).view.emb (ix2 r (c30 k j)))).val
  rw [Shape.rowMajor_val_three, Shape.rowMajor_val_two]
  have hk := k.isLt; have hj := j.isLt
  show (R.val * 10 + k.val) * 3 + j.val
    = (win0_1.index t (0 : Fin 2) * 1024 + 1 * r.val) * 30 + (win0_1.index t (1 : Fin 2) * 30 + 1 * (3 * k.val + j.val))
  omega

/-- WHAT POINT t WRITES BACK is block t of the row losses of the two arguments. -/
theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1))) := by
  obtain ⟨-, -, -, -, e0, e1⟩ := idx_facts t
  rw [Value.flushed2]
  funext j
  have hj : (j 0).val < 1024 := (j 0).isLt
  have ht : t.val < 2048 := t.isLt
  show out0_2 (iblk m c 0 t) (iblk m c 1 t) j
    = G (m ((c : Thread nD τ).loc main_arg0)) (m ((c : Thread nD τ).loc main_arg1)) (((cfg0.win 2).blk t).view.emb j)
  refine (out_row (iblk m c 0 t) (iblk m c 1 t) j).trans ?_
  have hR : ((((cfg0.win 2).blk t).view.emb j) 0).val = t.val * 1024 + (j 0).val := by
    show win0_2.index t (0 : Fin 2) * 1024 + 1 * (j 0).val = _
    omega
  unfold G
  rw [show (fun k i => (iblk m c 0 t : Vec Ideal S1024x16 .f32) (ix2 (j 0) (c16 k i)))
        = fun k i => (m ((c : Thread nD τ).loc main_arg0) : S2097152x4x4.Idx → EReal) (ix3 ((((cfg0.win 2).blk t).view.emb j) 0) k i)
      from funext fun k => funext fun i => true_blk m c t (j 0) _ hR k i,
    show (fun k j' => (iblk m c 1 t : Vec Ideal S1024x30 .f32) (ix2 (j 0) (c30 k j')))
        = fun k j' => (m ((c : Thread nD τ).loc main_arg1) : S2097152x10x3.Idx → EReal) (ix3 ((((cfg0.win 2).blk t).view.emb j) 0) (first4 k) j')
      from funext fun k => funext fun j' => pred_blk m c t (j 0) _ hR k j']

/-- An index of the result is in point t's block iff each coordinate is in the block's range on its axis. -/
theorem mem_blk (t : Fin cfg0.N) (i : S2097152x1.Idx) :
    i ∈ ((cfg0.win 2).blk t).view.set ↔ ∀ a : Fin 2, win0_2.index t a * S1024x1.size a ≤ (i a).val
      ∧ (i a).val < win0_2.index t a * S1024x1.size a + S1024x1.size a := by
  show i ∈ ((View.whole main_v2).slice (win0_2.rect t)).set ↔ _
  rw [View.set_slice_whole, Rect.mem_set_unit]
  exact Iff.rfl

/-- Every row of the result is in the block of the point that is its row number divided by 1024. -/
theorem cover (i : S2097152x1.Idx) : ∃ t : Fin cfg0.N, (cfg0.win 2).flush t = true ∧ i ∈ ((cfg0.win 2).blk t).view.set := by
  have h0 : (i 0).val < 2097152 := (i 0).isLt
  have h1 : (i 1).val < 1 := (i 1).isLt
  have hN : cfg0.N = 2048 := N_0
  let t : Fin cfg0.N := ⟨(i 0).val / 1024, by rw [hN]; omega⟩
  obtain ⟨-, -, -, -, e0, e1⟩ := idx_facts t
  have ht : t.val = (i 0).val / 1024 := rfl
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1 ≤ (i 1).val ∧ (i 1).val < win0_2.index t (1 : Fin 2) * 1 + 1; omega

/-- THE RESULT ARRAY after the run: the row loss of every row of the two arguments. -/
theorem final (c : Dev nD) : (dats m 0 c).arrAt 2 cfg0.N
    = G (m ((c : Thread nD τ).loc main_arg0)) (m ((c : Thread nD τ).loc main_arg1)) :=
  (dats m 0 c).arrAt_eq_of_cover 2 _ (fun t _ => flushed_eq m c t) cover

/-- The kernel's run, read: the result array at the row losses, the arguments unchanged. -/
theorem run : θ_run defs (onTc (τ := τ) (main (F := Ideal))) ⟨m, fun _ => 0, ρ⟩ fun r => ∀ c : Dev nD,
      r.2.mem ((c : Thread nD τ).loc main_v2) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrValue

end
-- ==== Proof.LibReduceTrailing.lean ====
/-
  A general reading of a host sum over the TWO trailing axes of a rank-3 array, at the ideal values: the element of
  the result at row j is the initial value plus the double sum, over the two summed coordinates, of the operand at
  (j, a, b). (The library reads a sum over one axis, or a sum into a result with no axis longer than one; a row-wise sum
  over two axes is neither.)
-/
import Idealize.ShloMosaic.PureOps.Ideal.Laws
import Idealize.ShloMosaic.Lib.ValueIdx

noncomputable section

namespace Idealize.ShloMosaic.Ideal

open Idealize.ShloMosaic Idealize.ShloMosaic.ValueIdx

/-- The indices of a [n0, n1, n2] array that keep row j when axes 1 and 2 are dropped are the (j, a, b); so the host's
    sum over those two axes, read at row j, is the initial value plus the double sum over a and b. -/
theorem hostReduceAdd_trailing2 {n0 n1 n2 : Nat}
    (h' : (⟨3, ![n0, n1, n2]⟩ : Shape).ReducesTo [1, 2] ⟨1, ![n0]⟩)
    (x : (⟨3, ![n0, n1, n2]⟩ : Shape).Idx → EReal) (init : EReal) (j : (⟨1, ![n0]⟩ : Shape).Idx) :
    Ideal.hostReduceAdd h' x init j = init + ∑ a : Fin n1, ∑ b : Fin n2, x (ix3 (j 0) a b) := by
  unfold Ideal.hostReduceAdd
  congr 1
  rw [← Fintype.sum_prod_type']
  have hd : ∀ i : (⟨3, ![n0, n1, n2]⟩ : Shape).Idx, (h'.drop i 0 : Nat) = i 0 :=
    fun i => h'.drop_apply_val_of_eq i 0 0
      (by show (0 : Nat) < ((List.finRange 3).filter (· ∉ ([1, 2] : List (Fin 3)))).length; decide)
      (by show ((List.finRange 3).filter (· ∉ ([1, 2] : List (Fin 3))))[(0 : Nat)]'(by decide) = (0 : Fin 3); decide)
  refine Finset.sum_nbij' (fun i => (i 1, i 2)) (fun p => ix3 (j 0) p.1 p.2) ?_ ?_ ?_ ?_ ?_
  · intro i _; exact Finset.mem_univ _
  · intro p _
    refine Finset.mem_filter.2 ⟨Finset.mem_univ _, ?_⟩
    funext b
    match b with
    | ⟨0, _⟩ => exact Fin.ext (hd _)
  · intro i hi
    have hj := (Finset.mem_filter.1 hi).2
    have e : j 0 = i 0 := by rw [← hj]; exact Fin.ext (hd i)
    show ix3 (j 0) (i 1) (i 2) = i
    rw [e]; exact (eq_ix3 i).symm
  · intro p _; rfl
  · intro i hi
    have hj := (Finset.mem_filter.1 hi).2
    have e : j 0 = i 0 := by rw [← hj]; exact Fin.ext (hd i)
    show x i = x (ix3 (j 0) (i 1) (i 2))
    rw [e]; exact congrArg x (eq_ix3 i)

end Idealize.ShloMosaic.Ideal

end
-- ==== Proof.RefRow.lean ====
/-
  The reference, read one row at a time.

  The reference cuts the four numbers of every true box and the three of every predicted box out of its arguments as
  [B, 4] and [B, 10] arrays, forms the predicted boxes' ends there (keeping the first four of the ten), spreads every
  [B, 4] array over a [B, 4, 4] grid once along each of the two small axes, computes the three grids of overlap areas
  pointwise — for the two self-overlaps with the diagonal entries squared, chosen by comparing the two small
  coordinates —, sums each grid over its two small axes, and combines the three row sums. Read at row b, every grid
  entry (k, k') is the corresponding term of the row's loss, and every sum the corresponding double sum.
-/
import proofs.«115214_j21337397527223_2_alg».proof.Proof.Gen.ReferenceIdeal.Read
import proofs.«115214_j21337397527223_2_alg».proof.Proof.RowLoss
import proofs.«115214_j21337397527223_2_alg».proof.Proof.LibReduceTrailing
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx Cert.RowLoss

/-- The two argument arrays at the ideal values. -/
abbrev TArr : Type := S2097152x4x4.Idx → EReal
abbrev PArr : Type := S2097152x10x3.Idx → EReal

/-- Row b's true boxes and (first four) predicted boxes. -/
abbrev tt (X : TArr) (b : Fin 2097152) : Fin 4 → Fin 4 → EReal := fun k c => X (ix3 b k c)
abbrev pp (Y : PArr) (b : Fin 2097152) : Fin 4 → Fin 3 → EReal := fun k c => Y (ix3 b (first4 k) c)

/-! ## The boxes' numbers, as [B, 4] and [B, 10] arrays: a cut of one coordinate, then the unit axis dropped -/

theorem v1_at (X : TArr) (b : Fin 2097152) (k : Fin 4) : val_main_v1 (F := Ideal) X (ix2 b k) = X (ix3 b k 0) := by
  rw [val_main_v1_apply, val_main_v0_apply]
  have hb := b.isLt; have hk := k.isLt
  exact congrArg X (funext fun a => match a with
    | ⟨0, _⟩ => Fin.ext (by show (b.val * 4 + k.val) / 4 = b.val; omega)
    | ⟨1, _⟩ => Fin.ext (by show (b.val * 4 + k.val) / 1 % 4 = k.val; omega)
    | ⟨2, _⟩ => rfl)
theorem v3_at (X : TArr) (b : Fin 2097152) (k : Fin 4) : val_main_v3 (F := Ideal) X (ix2 b k) = X (ix3 b k 1) := by
  rw [val_main_v3_apply, val_main_v2_apply]
  have hb := b.isLt; have hk := k.isLt
  exact congrArg X (funext fun a => match a with
    | ⟨0, _⟩ => Fin.ext (by show (b.val * 4 + k.val) / 4 = b.val; omega)
    | ⟨1, _⟩ => Fin.ext (by show (b.val * 4 + k.val) / 1 % 4 = k.val; omega)
    | ⟨2, _⟩ => rfl)
theorem v5_at (X : TArr) (b : Fin 2097152) (k : Fin 4) : val_main_v5 (F := Ideal) X (ix2 b k) = X (ix3 b k 2) := by
  rw [val_main_v5_apply, val_main_v4_apply]
  have hb := b.isLt; have hk := k.isLt
  exact congrArg X (funext fun a => match a with
    | ⟨0, _⟩ => Fin.ext (by show (b.val * 4 + k.val) / 4 = b.val; omega)
    | ⟨1, _⟩ => Fin.ext (by show (b.val * 4 + k.val) / 1 % 4 = k.val; omega)
    | ⟨2, _⟩ => rfl)
theorem v7_at (X : TArr) (b : Fin 2097152) (k : Fin 4) : val_main_v7 (F := Ideal) X (ix2 b k) = X (ix3 b k 3) := by
  rw [val_main_v7_apply, val_main_v6_apply]
  have hb := b.isLt; have hk := k.isLt
  exact congrArg X (funext fun a => match a with
    | ⟨0, _⟩ => Fin.ext (by show (b.val * 4 + k.val) / 4 = b.val; omega)
    | ⟨1, _⟩ => Fin.ext (by show (b.val * 4 + k.val) / 1 % 4 = k.val; omega)
    | ⟨2, _⟩ => rfl)
theorem v9_at (Y : PArr) (b : Fin 2097152) (k : Fin 10) : val_main_v9 (F := Ideal) Y (ix2 b k) = Y (ix3 b k 0) := by
  rw [val_main_v9_apply, val_main_v8_apply]
  have hb := b.isLt; have hk := k.isLt
  exact congrArg Y (funext fun a => match a with
    | ⟨0, _⟩ => Fin.ext (by show (b.val * 10 + k.val) / 10 = b.val; omega)
    | ⟨1, _⟩ => Fin.ext (by show (b.val * 10 + k.val) / 1 % 10 = k.val; omega)
    | ⟨2, _⟩ => rfl)
theorem v11_at (Y : PArr) (b : Fin 2097152) (k : Fin 10) : val_main_v11 (F := Ideal) Y (ix2 b k) = Y (ix3 b k 1) := by
  rw [val_main_v11_apply, val_main_v10_apply]
  have hb := b.isLt; have hk := k.isLt
  exact congrArg Y (funext fun a => match a with
    | ⟨0, _⟩ => Fin.ext (by show (b.val * 10 + k.val) / 10 = b.val; omega)
    | ⟨1, _⟩ => Fin.ext (by show (b.val * 10 + k.val) / 1 % 10 = k.val; omega)
    | ⟨2, _⟩ => rfl)
theorem v13_at (Y : PArr) (b : Fin 2097152) (k : Fin 10) : val_main_v13 (F := Ideal) Y (ix2 b k) = Y (ix3 b k 2) := by
  rw [val_main_v13_apply, val_main_v12_apply]
  have hb := b.isLt; have hk := k.isLt
  exact congrArg Y (funext fun a => match a with
    | ⟨0, _⟩ => Fin.ext (by show (b.val * 10 + k.val) / 10 = b.val; omega)
    | ⟨1, _⟩ => Fin.ext (by show (b.val * 10 + k.val) / 1 % 10 = k.val; omega)
    | ⟨2, _⟩ => rfl)

/-! ## The predicted boxes' ends, and the first four boxes of the ten -/

theorem v14_at (Y : PArr) (b : Fin 2097152) (k : Fin 10) :
    val_main_v14 (F := Ideal) Y (ix2 b k) = min (Y (ix3 b k 0)) (Y (ix3 b k 2)) := by
  rw [val_main_v14_apply, v9_at, v13_at]; rfl
theorem v15_at (Y : PArr) (b : Fin 2097152) (k : Fin 10) :
    val_main_v15 (F := Ideal) Y (ix2 b k) = max (Y (ix3 b k 0)) (Y (ix3 b k 2)) := by
  rw [val_main_v15_apply, v9_at, v13_at]; rfl
theorem v17_at (Y : PArr) (b : Fin 2097152) (k : Fin 10) :
    val_main_v17 (F := Ideal) Y (ix2 b k)
      = Y (ix3 b k 1) + (max (Y (ix3 b k 0)) (Y (ix3 b k 2)) - min (Y (ix3 b k 0)) (Y (ix3 b k 2))) := by
  rw [val_main_v17_apply, val_main_v16_apply, v11_at, v14_at, v15_at]; rfl

theorem v18_cut (Y : PArr) (b : Fin 2097152) (k : Fin 4) : val_main_v18 (F := Ideal) Y (ix2 b k) = val_main_v14 (F := Ideal) Y (ix2 b (first4 k)) := by
  rw [val_main_v18_apply]; exact congrArg _ (funext fun a => match a with | ⟨0, _⟩ => rfl | ⟨1, _⟩ => rfl)
theorem v19_cut (Y : PArr) (b : Fin 2097152) (k : Fin 4) : val_main_v19 (F := Ideal) Y (ix2 b k) = val_main_v15 (F := Ideal) Y (ix2 b (first4 k)) := by
  rw [val_main_v19_apply]; exact congrArg _ (funext fun a => match a with | ⟨0, _⟩ => rfl | ⟨1, _⟩ => rfl)
theorem v20_cut (Y : PArr) (b : Fin 2097152) (k : Fin 4) : val_main_v20 (F := Ideal) Y (ix2 b k) = val_main_v11 (F := Ideal) Y (ix2 b (first4 k)) := by
  rw [val_main_v20_apply]; exact congrArg _ (funext fun a => match a with | ⟨0, _⟩ => rfl | ⟨1, _⟩ => rfl)
theorem v21_cut (Y : PArr) (b : Fin 2097152) (k : Fin 4) : val_main_v21 (F := Ideal) Y (ix2 b k) = val_main_v17 (F := Ideal) Y (ix2 b (first4 k)) := by
  rw [val_main_v21_apply]; exact congrArg _ (funext fun a => match a with | ⟨0, _⟩ => rfl | ⟨1, _⟩ => rfl)

theorem v18_at (Y : PArr) (b : Fin 2097152) (k : Fin 4) : val_main_v18 (F := Ideal) Y (ix2 b k) = pminx (pp Y b) k := by
  rw [v18_cut, v14_at]; rfl
theorem v19_at (Y : PArr) (b : Fin 2097152) (k : Fin 4) : val_main_v19 (F := Ideal) Y (ix2 b k) = pmaxx (pp Y b) k := by
  rw [v19_cut, v15_at]; rfl
theorem v20_at (Y : PArr) (b : Fin 2097152) (k : Fin 4) : val_main_v20 (F := Ideal) Y (ix2 b k) = pp Y b k 1 := by
  rw [v20_cut, v11_at]
theorem v21_at (Y : PArr) (b : Fin 2097152) (k : Fin 4) : val_main_v21 (F := Ideal) Y (ix2 b k) = pmaxy (pp Y b) k := by
  rw [v21_cut, v17_at]; rfl

/-! ## A [B, 4] array spread over the [B, 4, 4] grid: along the second small axis (entry (k, k') is the array at k)
    or along the first (entry (k, k') is the array at k') -/

theorem v24_at (X : TArr) (b : Fin 2097152) (k kp : Fin 4) :
    val_main_v24 (F := Ideal) X (ix3 b k kp) = val_main_v1 (F := Ideal) X (ix2 b k) := by
  rw [val_main_v24_apply, val_main_v22_apply]; exact congrArg _ (funext fun a => match a with | ⟨0, _⟩ => rfl | ⟨1, _⟩ => rfl)
theorem v25_at (Y : PArr) (b : Fin 2097152) (k kp : Fin 4) :
    val_main_v25 (F := Ideal) Y (ix3 b k kp) = val_main_v18 (F := Ideal) Y (ix2 b kp) := by
  rw [val_main_v25_apply, val_main_v23_apply]; exact congrArg _ (funext fun a => match a with | ⟨0, _⟩ => rfl | ⟨1, _⟩ => rfl)
theorem v29_at (X : TArr) (b : Fin 2097152) (k kp : Fin 4) :
    val_main_v29 (F := Ideal) X (ix3 b k kp) = val_main_v5 (F := Ideal) X (ix2 b k) := by
  rw [val_main_v29_apply, val_main_v27_apply]; exact congrArg _ (funext fun a => match a with | ⟨0, _⟩ => rfl | ⟨1, _⟩ => rfl)
theorem v30_at (Y : PArr) (b : Fin 2097152) (k kp : Fin 4) :
    val_main_v30 (F := Ideal) Y (ix3 b k kp) = val_main_v19 (F := Ideal) Y (ix2 b kp) := by
  rw [val_main_v30_apply, val_main_v28_apply]; exact congrArg _ (funext fun a => match a with | ⟨0, _⟩ => rfl | ⟨1, _⟩ => rfl)
theorem v37_at (X : TArr) (b : Fin 2097152) (k kp : Fin 4) :
    val_main_v37 (F := Ideal) X (ix3 b k kp) = val_main_v3 (F := Ideal) X (ix2 b k) := by
  rw [val_main_v37_apply, val_main_v35_apply]; exact congrArg _ (funext fun a => match a with | ⟨0, _⟩ => rfl | ⟨1, _⟩ => rfl)
theorem v38_at (Y : PArr) (b : Fin 2097152) (k kp : Fin 4) :
    val_main_v38 (F := Ideal) Y (ix3 b k kp) = val_main_v20 (F := Ideal) Y (ix2 b kp) := by
  rw [val_main_v38_apply, val_main_v36_apply]; exact congrArg _ (funext fun a => match a with | ⟨0, _⟩ => rfl | ⟨1, _⟩ => rfl)
theorem v42_at (X : TArr) (b : Fin 2097152) (k kp : Fin 4) :
    val_main_v42 (F := Ideal) X (ix3 b k kp) = val_main_v7 (F := Ideal) X (ix2 b k) := by
  rw [val_main_v42_apply, val_main_v40_apply]; exact congrArg _ (funext fun a => match a with | ⟨0, _⟩ => rfl | ⟨1, _⟩ => rfl)
theorem v43_at (Y : PArr) (b : Fin 2097152) (k kp : Fin 4) :
    val_main_v43 (F := Ideal) Y (ix3 b k kp) = val_main_v21 (F := Ideal) Y (ix2 b kp) := by
  rw [val_main_v43_apply, val_main_v41_apply]; exact congrArg _ (funext fun a => match a with | ⟨0, _⟩ => rfl | ⟨1, _⟩ => rfl)
theorem v52_at (X : TArr) (b : Fin 2097152) (k kp : Fin 4) :
    val_main_v52 (F := Ideal) X (ix3 b k kp) = val_main_v1 (F := Ideal) X (ix2 b k) := by
  rw [val_main_v52_apply, val_main_v50_apply]; exact congrArg _ (funext fun a => match a with | ⟨0, _⟩ => rfl | ⟨1, _⟩ => rfl)
theorem v53_at (X : TArr) (b : Fin 2097152) (k kp : Fin 4) :
    val_main_v53 (F := Ideal) X (ix3 b k kp) = val_main_v1 (F := Ideal) X (ix2 b kp) := by
  rw [val_main_v53_apply, val_main_v51_apply]; exact congrArg _ (funext fun a => match a with | ⟨0, _⟩ => rfl | ⟨1, _⟩ => rfl)
theorem v57_at (X : TArr) (b : Fin 2097152) (k kp : Fin 4) :
    val_main_v57 (F := Ideal) X (ix3 b k kp) = val_main_v5 (F := Ideal) X (ix2 b k) := by
  rw [val_main_v57_apply, val_main_v55_apply]; exact congrArg _ (funext fun a => match a with | ⟨0, _⟩ => rfl | ⟨1, _⟩ => rfl)
theorem v58_at (X : TArr) (b : Fin 2097152) (k kp : Fin 4) :
    val_main_v58 (F := Ideal) X (ix3 b k kp) = val_main_v5 (F := Ideal) X (ix2 b kp) := by
  rw [val_main_v58_apply, val_main_v56_apply]; exact congrArg _ (funext fun a => match a with | ⟨0, _⟩ => rfl | ⟨1, _⟩ => rfl)
theorem v65_at (X : TArr) (b : Fin 2097152) (k kp : Fin 4) :
    val_main_v65 (F := Ideal) X (ix3 b k kp) = val_main_v3 (F := Ideal) X (ix2 b k) := by
  rw [val_main_v65_apply, val_main_v63_apply]; exact congrArg _ (funext fun a => match a with | ⟨0, _⟩ => rfl | ⟨1, _⟩ => rfl)
theorem v66_at (X : TArr) (b : Fin 2097152) (k kp : Fin 4) :
    val_main_v66 (F := Ideal) X (ix3 b k kp) = val_main_v3 (F := Ideal) X (ix2 b kp) := by
  rw [val_main_v66_apply, val_main_v64_apply]; exact congrArg _ (funext fun a => match a with | ⟨0, _⟩ => rfl | ⟨1, _⟩ => rfl)
theorem v70_at (X : TArr) (b : Fin 2097152) (k kp : Fin 4) :
    val_main_v70 (F := Ideal) X (ix3 b k kp) = val_main_v7 (F := Ideal) X (ix2 b k) := by
  rw [val_main_v70_apply, val_main_v68_apply]; exact congrArg _ (funext fun a => match a with | ⟨0, _⟩ => rfl | ⟨1, _⟩ => rfl)
theorem v71_at (X : TArr) (b : Fin 2097152) (k kp : Fin 4) :
    val_main_v71 (F := Ideal) X (ix3 b k kp) = val_main_v7 (F := Ideal) X (ix2 b kp) := by
  rw [val_main_v71_apply, val_main_v69_apply]; exact congrArg _ (funext fun a => match a with | ⟨0, _⟩ => rfl | ⟨1, _⟩ => rfl)
theorem v87_at (Y : PArr) (b : Fin 2097152) (k kp : Fin 4) :
    val_main_v87 (F := Ideal) Y (ix3 b k kp) = val_main_v18 (F := Ideal) Y (ix2 b k) := by
  rw [val_main_v87_apply, val_main_v85_apply]; exact congrArg _ (funext fun a => match a with | ⟨0, _⟩ => rfl | ⟨1, _⟩ => rfl)
theorem v88_at (Y : PArr) (b : Fin 2097152) (k kp : Fin 4) :
    val_main_v88 (F := Ideal) Y (ix3 b k kp) = val_main_v18 (F := Ideal) Y (ix2 b kp) := by
  rw [val_main_v88_apply, val_main_v86_apply]; exact congrArg _ (funext fun a => match a with | ⟨0, _⟩ => rfl | ⟨1, _⟩ => rfl)
theorem v92_at (Y : PArr) (b : Fin 2097152) (k kp : Fin 4) :
    val_main_v92 (F := Ideal) Y (ix3 b k kp) = val_main_v19 (F := Ideal) Y (ix2 b k) := by
  rw [val_main_v92_apply, val_main_v90_apply]; exact congrArg _ (funext fun a => match a with | ⟨0, _⟩ => rfl | ⟨1, _⟩ => rfl)
theorem v93_at (Y : PArr) (b : Fin 2097152) (k kp : Fin 4) :
    val_main_v93 (F := Ideal) Y (ix3 b k kp) = val_main_v19 (F := Ideal) Y (ix2 b kp) := by
  rw [val_main_v93_apply, val_main_v91_apply]; exact congrArg _ (funext fun a => match a with | ⟨0, _⟩ => rfl | ⟨1, _⟩ => rfl)
theorem v100_at (Y : PArr) (b : Fin 2097152) (k kp : Fin 4) :
    val_main_v100 (F := Ideal) Y (ix3 b k kp) = val_main_v20 (F := Ideal) Y (ix2 b k) := by
  rw [val_main_v100_apply, val_main_v98_apply]; exact congrArg _ (funext fun a => match a with | ⟨0, _⟩ => rfl | ⟨1, _⟩ => rfl)
theorem v101_at (Y : PArr) (b : Fin 2097152) (k kp : Fin 4) :
    val_main_v101 (F := Ideal) Y (ix3 b k kp) = val_main_v20 (F := Ideal) Y (ix2 b kp) := by
  rw [val_main_v101_apply, val_main_v99_apply]; exact congrArg _ (funext fun a => match a with | ⟨0, _⟩ => rfl | ⟨1, _⟩ => rfl)
theorem v105_at (Y : PArr) (b : Fin 2097152) (k kp : Fin 4) :
    val_main_v105 (F := Ideal) Y (ix3 b k kp) = val_main_v21 (F := Ideal) Y (ix2 b k) := by
  rw [val_main_v105_apply, val_main_v103_apply]; exact congrArg _ (funext fun a => match a with | ⟨0, _⟩ => rfl | ⟨1, _⟩ => rfl)
theorem v106_at (Y : PArr) (b : Fin 2097152) (k kp : Fin 4) :
    val_main_v106 (F := Ideal) Y (ix3 b k kp) = val_main_v21 (F := Ideal) Y (ix2 b kp) := by
  rw [val_main_v106_apply, val_main_v104_apply]; exact congrArg _ (funext fun a => match a with | ⟨0, _⟩ => rfl | ⟨1, _⟩ => rfl)

/-! ## The zero the overlaps are clipped at -/

theorem v33_at (i : S2097152x4x4.Idx) : val_main_v33 (F := Ideal) i = (0 : EReal) := by
  rw [val_main_v33_apply, val_main_cst_apply]; exact Ideal.ofBits_zero_f32
theorem v46_at (i : S2097152x4x4.Idx) : val_main_v46 (F := Ideal) i = (0 : EReal) := by
  rw [val_main_v46_apply, val_main_cst_0_apply]; exact Ideal.ofBits_zero_f32
theorem v61_at (i : S2097152x4x4.Idx) : val_main_v61 (F := Ideal) i = (0 : EReal) := by
  rw [val_main_v61_apply, val_main_cst_2_apply]; exact Ideal.ofBits_zero_f32
theorem v74_at (i : S2097152x4x4.Idx) : val_main_v74 (F := Ideal) i = (0 : EReal) := by
  rw [val_main_v74_apply, val_main_cst_3_apply]; exact Ideal.ofBits_zero_f32
theorem v96_at (i : S2097152x4x4.Idx) : val_main_v96 (F := Ideal) i = (0 : EReal) := by
  rw [val_main_v96_apply, val_main_cst_5_apply]; exact Ideal.ofBits_zero_f32
theorem v109_at (i : S2097152x4x4.Idx) : val_main_v109 (F := Ideal) i = (0 : EReal) := by
  rw [val_main_v109_apply, val_main_cst_6_apply]; exact Ideal.ofBits_zero_f32

/-! ## The three grids of overlap areas -/

/-- True box k with predicted box k'. -/
theorem v48_at (X : TArr) (Y : PArr) (b : Fin 2097152) (k kp : Fin 4) :
    val_main_v48 (F := Ideal) X Y (ix3 b k kp)
      = area (fun k => tt X b k 0) (fun k => tt X b k 2) (fun k => tt X b k 1) (fun k => tt X b k 3)
          (pminx (pp Y b)) (pmaxx (pp Y b)) (fun k => pp Y b k 1) (pmaxy (pp Y b)) k kp := by
  rw [val_main_v48_apply, val_main_v34_apply, val_main_v47_apply, val_main_v32_apply, val_main_v45_apply,
    val_main_v31_apply, val_main_v26_apply, val_main_v44_apply, val_main_v39_apply, v33_at, v46_at,
    v24_at, v25_at, v29_at, v30_at, v37_at, v38_at, v42_at, v43_at,
    v1_at, v3_at, v5_at, v7_at, v18_at, v19_at, v20_at, v21_at]
  rfl

/-- True box k with true box k'. -/
theorem v76_at (X : TArr) (b : Fin 2097152) (k kp : Fin 4) :
    val_main_v76 (F := Ideal) X (ix3 b k kp)
      = area (fun k => tt X b k 0) (fun k => tt X b k 2) (fun k => tt X b k 1) (fun k => tt X b k 3)
          (fun k => tt X b k 0) (fun k => tt X b k 2) (fun k => tt X b k 1) (fun k => tt X b k 3) k kp := by
  rw [val_main_v76_apply, val_main_v62_apply, val_main_v75_apply, val_main_v60_apply, val_main_v73_apply,
    val_main_v59_apply, val_main_v54_apply, val_main_v72_apply, val_main_v67_apply, v61_at, v74_at,
    v52_at, v53_at, v57_at, v58_at, v65_at, v66_at, v70_at, v71_at]
  simp only [v1_at, v3_at, v5_at, v7_at]
  rfl

/-- Predicted box k with predicted box k'. -/
theorem v111_at (Y : PArr) (b : Fin 2097152) (k kp : Fin 4) :
    val_main_v111 (F := Ideal) Y (ix3 b k kp)
      = area (pminx (pp Y b)) (pmaxx (pp Y b)) (fun k => pp Y b k 1) (pmaxy (pp Y b))
          (pminx (pp Y b)) (pmaxx (pp Y b)) (fun k => pp Y b k 1) (pmaxy (pp Y b)) k kp := by
  rw [val_main_v111_apply, val_main_v97_apply, val_main_v110_apply, val_main_v95_apply, val_main_v108_apply,
    val_main_v94_apply, val_main_v89_apply, val_main_v107_apply, val_main_v102_apply, v96_at, v109_at,
    v87_at, v88_at, v92_at, v93_at, v100_at, v101_at, v105_at, v106_at]
  simp only [v18_at, v19_at, v20_at, v21_at]
  rfl

/-! ## The diagonal of the grid -/

/-- The mask that picks the squared entries is one exactly on the diagonal k = k'. -/
theorem eye0_at (b : Fin 2097152) (k kp : Fin 4) :
    val_main_call0_v0 (F := Ideal) (ix3 b k kp) = if k = kp then 1#1 else 0#1 := by
  rw [val_main_call0_v0_apply, val_main_v81_apply, val_main_v80_apply, val_main_v77_apply, val_main_v78_apply,
    val_main_v79_apply, val_main_c_apply]
  fin_cases k <;> fin_cases kp <;> rfl
theorem eye1_at (b : Fin 2097152) (k kp : Fin 4) :
    val_main_call1_v0 (F := Ideal) (ix3 b k kp) = if k = kp then 1#1 else 0#1 := by
  rw [val_main_call1_v0_apply, val_main_v116_apply, val_main_v115_apply, val_main_v112_apply, val_main_v113_apply,
    val_main_v114_apply, val_main_c_7_apply]
  fin_cases k <;> fin_cases kp <;> rfl

/-- A value chosen by that mask is chosen by k = k'. -/
theorem select_eye (k kp : Fin 4) (a a' : EReal) :
    Scalar.select (if k = kp then 1#1 else 0#1) a a' = if k = kp then a else a' := by
  by_cases h : k = kp
  · rw [if_pos h, if_pos h]; exact select_one a a'
  · rw [if_neg h, if_neg h]; exact select_zero a a'

theorem v83_at (X : TArr) (b : Fin 2097152) (k kp : Fin 4) :
    val_main_v83 (F := Ideal) X (ix3 b k kp)
      = if k = kp then val_main_v76 (F := Ideal) X (ix3 b k kp) * val_main_v76 (F := Ideal) X (ix3 b k kp)
        else val_main_v76 (F := Ideal) X (ix3 b k kp) := by
  rw [val_main_v83_apply, val_main_v82_apply, eye0_at, select_eye]; rfl
theorem v118_at (Y : PArr) (b : Fin 2097152) (k kp : Fin 4) :
    val_main_v118 (F := Ideal) Y (ix3 b k kp)
      = if k = kp then val_main_v111 (F := Ideal) Y (ix3 b k kp) * val_main_v111 (F := Ideal) Y (ix3 b k kp)
        else val_main_v111 (F := Ideal) Y (ix3 b k kp) := by
  rw [val_main_v118_apply, val_main_v117_apply, eye1_at, select_eye]; rfl

/-! ## The three row sums, and the result -/

/-- The host's sum of a [B, 4, 4] grid over its two small axes from the zero it starts at, read at row b. -/
theorem rowSum_at (x : S2097152x4x4.Idx → EReal) (z : S_.Idx → EReal) (hz : ∀ i, z i = 0)
    (h : S2097152x4x4.ReducesTo [1, 2] S2097152) (hu : 0 < S_.numel) (b : Fin 2097152) :
    Host.reduceAdd (F := Ideal) (φ := .f32) x z h hu (ix1 b) = ∑ k : Fin 4, ∑ kp : Fin 4, x (ix3 b k kp) := by
  unfold Host.reduceAdd
  rw [Ideal.hostReduceAdd_def, Ideal.hostReduceAdd_trailing2, hz, zero_add]

theorem v49_at (X : TArr) (Y : PArr) (b : Fin 2097152) :
    val_main_v49 (F := Ideal) X Y (ix1 b) = inter (tt X b) (pp Y b) := by
  unfold val_main_v49
  rw [rowSum_at _ _ (fun i => by rw [val_main_cst_1_apply]; exact Ideal.ofBits_zero_f32)]
  simp only [v48_at]
  rfl
theorem v84_at (X : TArr) (b : Fin 2097152) :
    val_main_v84 (F := Ideal) X (ix1 b)
      = beta (fun k => tt X b k 0) (fun k => tt X b k 2) (fun k => tt X b k 1) (fun k => tt X b k 3) := by
  unfold val_main_v84
  rw [rowSum_at _ _ (fun i => by rw [val_main_cst_4_apply]; exact Ideal.ofBits_zero_f32)]
  simp only [v83_at, v76_at]
  rfl
theorem v119_at (Y : PArr) (b : Fin 2097152) :
    val_main_v119 (F := Ideal) Y (ix1 b) = beta (pminx (pp Y b)) (pmaxx (pp Y b)) (fun k => pp Y b k 1) (pmaxy (pp Y b)) := by
  unfold val_main_v119
  rw [rowSum_at _ _ (fun i => by rw [val_main_cst_8_apply]; exact Ideal.ofBits_zero_f32)]
  simp only [v118_at, v111_at]
  rfl

/-- The reference's result at row b is that row's loss. -/
theorem ref_row (X : TArr) (Y : PArr) (b : Fin 2097152) :
    val_main_v123 (F := Ideal) X Y (ix2 b (0 : Fin 1)) = rowLoss (tt X b) (pp Y b) := by
  rw [val_main_v123_apply,
    show idx_main_v123 (ix2 b (0 : Fin 1)) = ix1 b from funext fun a => match a with | ⟨0, _⟩ => rfl,
    val_main_v122_apply, val_main_v121_apply, val_main_v120_apply, v49_at, v84_at, v119_at]
  rfl

/-- THE REFERENCE's result array is the row loss of every row. -/
theorem ref_eq (X : TArr) (Y : PArr) : val_main_v123 (F := Ideal) X Y = G X Y := by
  funext i
  have h1 : (i 1).val < 1 := (i 1).isLt
  have hi : i = ix2 (i 0) (0 : Fin 1) :=
    funext fun a => match a with | ⟨0, _⟩ => rfl | ⟨1, _⟩ => Fin.ext (by show (i 1).val = 0; omega)
  rw [hi]
  exact ref_row X Y (i 0)

end Cert.ReferenceIdeal.RefValue

end
-- ==== Proof.lean ====
/-
  The kernel against its reference, at the ideal values.

  Both programs map every batch row — four true boxes, four numbers each, and the first four of ten predicted boxes, three
  numbers each — to (β(true) − β(pred))² − (the total overlap of true with predicted boxes), where β of a family of boxes
  is the sum of the pairwise overlap areas with the diagonal ones squared (Proof/RowLoss.lean). The kernel does it on
  blocks of 1024 rows of the flattened arguments, the sums written out term by term from zero (Proof/KernelRow.lean,
  Proof/KernelValue.lean); the reference on whole [B, 4, 4] grids that it sums over their two small axes
  (Proof/RefRow.lean, over Proof/LibReduceTrailing.lean). A sum of sixteen extended reals is the same in either
  grouping, since addition on the extended reals is associative with zero neutral; nothing else separates the two, so
  the equality holds at every input and the precondition is not used. No operation was rewritten by the idealization,
  so there is nothing to preserve; the three frames are the generated ones.
-/
import proofs.«115214_j21337397527223_2_alg».proof.Defs
import proofs.«115214_j21337397527223_2_alg».proof.Proof.Gen.Kernel
import proofs.«115214_j21337397527223_2_alg».proof.Proof.Gen.Kernel.Skeleton
import proofs.«115214_j21337397527223_2_alg».proof.Proof.Gen.Kernel.Launch
import proofs.«115214_j21337397527223_2_alg».proof.Proof.Gen.Kernel.Points
import proofs.«115214_j21337397527223_2_alg».proof.Proof.Gen.Kernel.Frame
import proofs.«115214_j21337397527223_2_alg».proof.Proof.Gen.KernelIdeal
import proofs.«115214_j21337397527223_2_alg».proof.Proof.Gen.KernelIdeal.Skeleton
import proofs.«115214_j21337397527223_2_alg».proof.Proof.Gen.KernelIdeal.Launch
import proofs.«115214_j21337397527223_2_alg».proof.Proof.Gen.KernelIdeal.Points
import proofs.«115214_j21337397527223_2_alg».proof.Proof.Gen.KernelIdeal.Frame
import proofs.«115214_j21337397527223_2_alg».proof.Proof.Gen.ReferenceIdeal
import proofs.«115214_j21337397527223_2_alg».proof.Proof.Gen.Pre_finite_inputs
import proofs.«115214_j21337397527223_2_alg».proof.Proof.Gen.KernelIdeal.Value
import proofs.«115214_j21337397527223_2_alg».proof.Proof.Gen.ReferenceIdeal.Run
import proofs.«115214_j21337397527223_2_alg».proof.Proof.Gen.ReferenceIdeal.Read
import proofs.«115214_j21337397527223_2_alg».proof.Proof.KernelValue
import proofs.«115214_j21337397527223_2_alg».proof.Proof.RefRow
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the two arguments, both programs end with the result array at the row losses of those
    arguments: the kernel by its blocks, the reference by its row sums. -/
theorem algebraic : Cert.algebraic_KernelIdeal_ReferenceIdeal := by
  intro m ρ m' ρ' _ hagree
  refine ⟨fun c => Cert.RowLoss.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v123_eq, Cert.ReferenceIdeal.RefValue.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
